-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x50257 : Shape := ⟨3, ![4, 256, 50257]⟩
abbrev S50257x768 : Shape := ⟨2, ![50257, 768]⟩
abbrev S_ : Shape := ⟨0, ![]⟩

class Facts : Prop where
  bcast_S_S4x256x50257 : S_.BroadcastsInDim S4x256x50257 (![] : Fin 0 → Fin S4x256x50257.rank)
  reducesTo_S4x256x50257_S_d0_1_2 : S4x256x50257.ReducesTo [0, 1, 2] S_
  h_S_ : 0 < S_.numel
  bcast_S_S50257x768 : S_.BroadcastsInDim S50257x768 (![] : Fin 0 → Fin S50257x768.rank)
  reducesTo_S50257x768_S_d0_1 : S50257x768.ReducesTo [0, 1] S_

variable [Facts]

def fn {F : FTy → Type} [FloatOps F] (main_arg0 : FVec F S4x256x50257 .f32) (main_arg1 : FVec F S50257x768 .f32) : IVec S_ 1 :=
  let main_v0 : FVec F S4x256x50257 .f32 := Host.absf main_arg0
  let main_cst : FVec F S_ .f32 := constant S_ .f32 0x7F800000#32
  let main_v1 : FVec F S4x256x50257 .f32 := broadcastInDim S4x256x50257 ![] bcast_S_S4x256x50257 main_cst
  let main_v2 : IVec S4x256x50257 1 := cmpf .olt main_v0 main_v1
  let main_c : IVec S_ 1 := constantI S_ 1 1#1
  let main_v3 : IVec S_ 1 := (fun x v => Host.reduce IntOp.andi x v reducesTo_S4x256x50257_S_d0_1_2 h_S_) main_v2 main_c
  let main_v4 : FVec F S50257x768 .f32 := Host.absf main_arg1
  let main_cst_0 : FVec F S_ .f32 := constant S_ .f32 0x7F800000#32
  let main_v5 : FVec F S50257x768 .f32 := broadcastInDim S50257x768 ![] bcast_S_S50257x768 main_cst_0
  let main_v6 : IVec S50257x768 1 := cmpf .olt main_v4 main_v5
  let main_c_1 : IVec S_ 1 := constantI S_ 1 1#1
  let main_v7 : IVec S_ 1 := (fun x v => Host.reduce IntOp.andi x v reducesTo_S50257x768_S_d0_1 h_S_) main_v6 main_c_1
  let main_v8 : IVec S_ 1 := andi main_v3 main_v7
  main_v8
-- ==== Kernel.lean ====
abbrev S4x256x50257 : Shape := ⟨3, ![4, 256, 50257]⟩
abbrev S50257x768 : Shape := ⟨2, ![50257, 768]⟩
abbrev S1024x50257 : Shape := ⟨2, ![1024, 50257]⟩
abbrev S_ : Shape := ⟨0, ![]⟩
abbrev S1024x51200 : Shape := ⟨2, ![1024, 51200]⟩
abbrev S51200x768 : Shape := ⟨2, ![51200, 768]⟩
abbrev S1024x768 : Shape := ⟨2, ![1024, 768]⟩
abbrev S512x2048 : Shape := ⟨2, ![512, 2048]⟩
abbrev S2048x768 : Shape := ⟨2, ![2048, 768]⟩
abbrev S512x768 : Shape := ⟨2, ![512, 768]⟩
abbrev S4x256x768 : Shape := ⟨3, ![4, 256, 768]⟩

abbrev nBuf : Space → Nat
  | .hbm => 11
  | .vmem => 7
  | .smem => 0
  | _ => 0

abbrev bufTy : (tb : Table) → Fin (tcTables nBuf tb) → BufTy
  | .hbm, ⟨0, _⟩ => ⟨S4x256x50257, .f32⟩
  | .hbm, ⟨1, _⟩ => ⟨S50257x768, .f32⟩
  | .hbm, ⟨2, _⟩ => ⟨S1024x50257, .f32⟩
  | .hbm, ⟨3, _⟩ => ⟨S_, .i32⟩
  | .hbm, ⟨4, _⟩ => ⟨S_, .f32⟩
  | .hbm, ⟨5, _⟩ => ⟨S1024x51200, .f32⟩
  | .hbm, ⟨6, _⟩ => ⟨S_, .i32⟩
  | .hbm, ⟨7, _⟩ => ⟨S_, .f32⟩
  | .hbm, ⟨8, _⟩ => ⟨S51200x768, .f32⟩
  | .hbm, ⟨9, _⟩ => ⟨S1024x768, .f32⟩
  | .hbm, ⟨10, _⟩ => ⟨S4x256x768, .f32⟩
  | .local _ .vmem, ⟨0, _⟩ => ⟨S512x2048, .f32⟩
  | .local _ .vmem, ⟨1, _⟩ => ⟨S512x2048, .f32⟩
  | .local _ .vmem, ⟨2, _⟩ => ⟨S2048x768, .f32⟩
  | .local _ .vmem, ⟨3, _⟩ => ⟨S2048x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | _, _ => ⟨S4x256x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v15 : BitVec 1 := Scalar.cmpi .eq arg1 c24_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x256x50257_S1024x50257 : S4x256x50257.ShapeCasts S1024x50257
  pads_S1024x50257_S1024x51200_000_09430 : S1024x50257.Pads (![0, 0] : Fin 2 → Nat) ![0, 943] ![0, 0] S1024x51200
  h_S_ : 0 < S_.numel
  pads_S50257x768_S51200x768_09430_000 : S50257x768.Pads (![0, 0] : Fin 2 → Nat) ![943, 0] ![0, 0] S51200x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  shapeCasts_S1024x768_S4x256x768 : S1024x768.ShapeCasts S4x256x768
  dot_S512x2048_S2048x768_S512x768_1_0_0_1_n_n_wf : DotDims.WF S512x2048 S2048x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S1024x51200.size a
  hwx0_0 : ∀ i : grid0.Coords, EltTy.bits .f32 = 32 ∨ (Rect.block (s := S1024x51200) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S51200x768.size a
  hwx0_1 : ∀ i : grid0.Coords, EltTy.bits .f32 = 32 ∨ (Rect.block (s := S51200x768) S2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x768.size a ≤ S1024x768.size a
  hwx0_2 : ∀ i : grid0.Coords, EltTy.bits .f32 = 32 ∨ (Rect.block (s := S1024x768) S512x768.size (cc0_transform_2 i) (hinb0_2 i)).WholeWords (EltTy.packing .f32)

variable [Facts₀]

def dot_S512x2048_S2048x768_S512x768_1_0_0_1_n_n : DotDims S512x2048 S2048x768 S512x768 where
  lhsContracting := [1]
  rhsContracting := [0]
  lhsNonContracting := [0]
  rhsNonContracting := [1]
  lhsBatch := []
  rhsBatch := []
  wf := dot_S512x2048_S2048x768_S512x768_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x256x50257 : Shape := ⟨3, ![4, 256, 50257]⟩
abbrev S50257x768 : Shape := ⟨2, ![50257, 768]⟩
abbrev S4x256x768 : Shape := ⟨3, ![4, 256, 768]⟩

abbrev nBuf : Space → Nat
  | .hbm => 3
  | .vmem => 0
  | .smem => 0
  | _ => 0

abbrev bufTy : (tb : Table) → Fin (tcTables nBuf tb) → BufTy
  | .hbm, ⟨0, _⟩ => ⟨S4x256x50257, .f32⟩
  | .hbm, ⟨1, _⟩ => ⟨S50257x768, .f32⟩
  | .hbm, ⟨2, _⟩ => ⟨S4x256x768, .f32⟩
  | _, _ => ⟨S4x256x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4x256x50257_S50257x768_S4x256x768_2_0_01_1_n_n_wf : DotDims.WF S4x256x50257 S50257x768 S4x256x768 [2] [0] [0, 1] [1] [] []

variable [Facts₀]

def dot_S4x256x50257_S50257x768_S4x256x768_2_0_01_1_n_n : DotDims S4x256x50257 S50257x768 S4x256x768 where
  lhsContracting := [2]
  rhsContracting := [0]
  lhsNonContracting := [0, 1]
  rhsNonContracting := [1]
  lhsBatch := []
  rhsBatch := []
  wf := dot_S4x256x50257_S50257x768_S4x256x768_2_0_01_1_n_n_wf

class Facts : Prop extends Facts₀ where

variable [Facts]
-- ==== Proof.CaseValues.lean ====
/-
  What each of the body's three control cases leaves behind, as a value of the blocks it was handed.
  At the first reduction step (k = 0) the accumulator is seeded with the zero block and the step is applied to it; at the
  later steps the step is applied to what the point before left in the accumulator; at the last step (k = 24) the output
  block receives the accumulator just computed. Each case's stores cover the whole 512 x 768 block, so the buffer reads
  back as the one stored value, and every load of the step reads a whole buffer.
-/
import proofs.«136909_j79147657330929_1_alg».proof.Proof.Gen.KernelIdeal.Frame
import Idealize.ShloMosaic.Lib.Pipeline.Value
import Idealize.ShloMosaic.Lib.Tactic

noncomputable section

namespace Cert.KernelIdeal.Embed

open Idealize.ShloMosaic Idealize.ShloMosaic.TcCoe Idealize.SL.Sem Cert.KernelIdeal Cert.KernelIdeal.Gen

variable {F : FTy → Type} [FloatOps F]

theorem origin2 : (![0, 0] : Fin 2 → Nat) = fun _ => 0 := funext fun a => by fin_cases a <;> rfl

/-- First step: the accumulator ends at the step applied to the zero block. -/
theorem scratch_first (c : Dev nD) (i : grid0.Coords) (a2 : Memref sig .tc .vmem S512x2048 .f32) (h2 : a2.IsWhole)
    (a3 : Memref sig .tc .vmem S2048x768 .f32) (h3 : a3.IsWhole) (a4 : Memref sig .tc .vmem S512x768 .f32) (h4 : a4.IsWhole)
    (a5 : Memref sig .tc .vmem S512x768 .f32) (h5 : a5.IsWhole) (hc0 : cond0_0 i) (hc1 : ¬cond0_1 i)
    (x0 : Vec F S512x2048 .f32) (x1 : Vec F S2048x768 .f32) :
    sout0_A_0 c i a2 h2 a3 h3 a4 h4 a5 h5 hc0 hc1 x0 x1 = k0_pay2 x0 x1 k0_pay1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x768) origin2, View.readCov_unit_zero (S := S512x768) _ origin2]
  simp only [View.readAt_eq_ld, h2.read_unread, h3.read_unread, View.ld_unit_zero (S := S512x2048) origin2,
    View.ld_unit_zero (S := S2048x768) origin2]

/-- A middle step: the accumulator ends at the step applied to what it held. -/
theorem scratch_middle (c : Dev nD) (i : grid0.Coords) (a2 : Memref sig .tc .vmem S512x2048 .f32) (h2 : a2.IsWhole)
    (a3 : Memref sig .tc .vmem S2048x768 .f32) (h3 : a3.IsWhole) (a4 : Memref sig .tc .vmem S512x768 .f32) (h4 : a4.IsWhole)
    (a5 : Memref sig .tc .vmem S512x768 .f32) (h5 : a5.IsWhole) (hc0 : ¬cond0_0 i) (hc1 : ¬cond0_1 i)
    (x0 : Vec F S512x2048 .f32) (x1 : Vec F S2048x768 .f32) (xs : Vec F S512x768 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero origin2]
  simp only [View.readAt_eq_ld, h2.read_unread, h3.read_unread, h5.read_unread, View.ld_unit_zero (S := S512x2048) origin2,
    View.ld_unit_zero (S := S2048x768) origin2, View.ld_unit_zero (S := S512x768) origin2]

/-- The last step: the accumulator ends at the step applied to what it held, -/
theorem scratch_last (c : Dev nD) (i : grid0.Coords) (a2 : Memref sig .tc .vmem S512x2048 .f32) (h2 : a2.IsWhole)
    (a3 : Memref sig .tc .vmem S2048x768 .f32) (h3 : a3.IsWhole) (a4 : Memref sig .tc .vmem S512x768 .f32) (h4 : a4.IsWhole)
    (a5 : Memref sig .tc .vmem S512x768 .f32) (h5 : a5.IsWhole) (hc0 : ¬cond0_0 i) (hc1 : cond0_1 i)
    (x0 : Vec F S512x2048 .f32) (x1 : Vec F S2048x768 .f32) (xs : Vec F S512x768 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero origin2]
  simp only [View.readAt_eq_ld, h2.read_unread, h3.read_unread, h5.read_unread, View.ld_unit_zero (S := S512x2048) origin2,
    View.ld_unit_zero (S := S2048x768) origin2, View.ld_unit_zero (S := S512x768) origin2]

/-- and the output block receives that same value. -/
theorem output_last (c : Dev nD) (i : grid0.Coords) (a2 : Memref sig .tc .vmem S512x2048 .f32) (h2 : a2.IsWhole)
    (a3 : Memref sig .tc .vmem S2048x768 .f32) (h3 : a3.IsWhole) (a4 : Memref sig .tc .vmem S512x768 .f32) (h4 : a4.IsWhole)
    (a5 : Memref sig .tc .vmem S512x768 .f32) (h5 : a5.IsWhole) (hc0 : ¬cond0_0 i) (hc1 : cond0_1 i)
    (x0 : Vec F S512x2048 .f32) (x1 : Vec F S2048x768 .f32) (xs : Vec F S512x768 .f32) :
    out0_C_2 c i a2 h2 a3 h3 a4 h4 a5 h5 hc0 hc1 x0 x1 xs = k0_pay2 x0 x1 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero origin2, View.readCov_unit_zero (S := S512x768) _ origin2]
  simp only [View.readAt_eq_ld, h2.read_unread, h3.read_unread, h5.read_unread, View.ld_unit_zero (S := S512x2048) origin2,
    View.ld_unit_zero (S := S2048x768) origin2, View.ld_unit_zero (S := S512x768) origin2]

end Cert.KernelIdeal.Embed

end
-- ==== Proof.PointValues.lean ====
/-
  What the accumulator and the output's staging block hold after a grid point, as a value of that point's input blocks.
  Point t is reduction step t % 25 of row block t / 25. After step 0 the accumulator is the step applied to the zero
  block; after a later step it is the step applied to what the point before left; after step 24 the output's block
  holds that same last value.
-/
import proofs.«136909_j79147657330929_1_alg».proof.Proof.CaseValues

noncomputable section

namespace Cert.KernelIdeal.Embed

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- After step 0 of a row block. -/
theorem acc_at_first (c : Dev nD) (t : Fin cfg0.N) (h0 : t.val % 25 = 0) (h1 : ¬t.val % 25 = 24) :
    (outsAt0 m c t.val t.isLt).2 = k0_pay2 (iblk m c 0 t) (iblk m c 1 t) k0_pay1 := by
  rw [outsAt0_A m c t h0 h1]
  dsimp only
  exact scratch_first c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- After a step strictly between the first and the last. -/
theorem acc_at_middle (c : Dev nD) (t : Fin cfg0.N) (h0 : ¬t.val % 25 = 0) (h1 : ¬t.val % 25 = 24) :
    (outsAt0 m c t.val t.isLt).2
      = k0_pay2 (iblk m c 0 t) (iblk m c 1 t) (outsAt0 m c (t.val - 1) (Nat.lt_of_le_of_lt (Nat.sub_le _ _) t.isLt)).2 := by
  rw [outsAt0_B m c t h0 h1]
  dsimp only
  exact scratch_middle c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- After the last step: the accumulator, -/
theorem acc_at_last (c : Dev nD) (t : Fin cfg0.N) (h0 : ¬t.val % 25 = 0) (h1 : t.val % 25 = 24) :
    (outsAt0 m c t.val t.isLt).2
      = k0_pay2 (iblk m c 0 t) (iblk m c 1 t) (outsAt0 m c (t.val - 1) (Nat.lt_of_le_of_lt (Nat.sub_le _ _) t.isLt)).2 := by
  rw [outsAt0_C m c t h0 h1]
  dsimp only
  exact scratch_last c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- and the output's block, which holds the same value. -/
theorem out_at_last (c : Dev nD) (t : Fin cfg0.N) (h0 : ¬t.val % 25 = 0) (h1 : t.val % 25 = 24) :
    (outsAt0 m c t.val t.isLt).1 = (outsAt0 m c t.val t.isLt).2 := by
  rw [outsAt0_C m c t h0 h1]
  dsimp only
  exact (output_last c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).trans
    (scratch_last c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).symm

end Cert.KernelIdeal.Embed

end
-- ==== Proof.BlockPayload.lean ====
/-
  What one grid point computes, read at a single entry over the extended reals.
  The block seeded at the first reduction step is zero at every entry. A step takes the accumulator block `acc`
  (512 x 768), the one-hot block `x0` (512 x 2048) and the table block `x1` (2048 x 768) and leaves, at entry (r, d),
  `acc (r, d) + sum over j < 2048 of x0 (r, j) * x1 (j, d)`: the two roundings to bf16 are the identity on extended
  reals, and the matrix product into a zero accumulator is the plain sum over the one contracted axis.
-/
import proofs.«136909_j79147657330929_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Embed

open Idealize.ShloMosaic Idealize.ShloMosaic.ValueIdx Cert.KernelIdeal Cert.KernelIdeal.Gen

/-- The block's dimension numbers: axis 1 of the left operand against axis 0 of the right. -/
abbrev blockDot := dot_S512x2048_S2048x768_S512x768_1_0_0_1_n_n

/-- The seed block is zero at every entry. -/
theorem seed_apply (j : S512x768.Idx) : k0_pay1 (F := Ideal) j = 0 := by
  unfold k0_pay1
  simp only [shapeCast_self]
  exact Ideal.ofBits_zero_f32

theorem lhs_row (i : S512x768.Idx) (q : blockDot.contr.Idx) : (blockDot.lhsIdx i q 0).val = (i 0).val := by
  unfold DotDims.lhsIdx
  rw [dif_neg (show ¬(0 : Fin S512x2048.rank) ∈ blockDot.lhsBatch by decide),
    dif_pos (show (0 : Fin S512x2048.rank) ∈ blockDot.lhsNonContracting by decide)]
  rfl
theorem lhs_col (i : S512x768.Idx) (q : blockDot.contr.Idx) : (blockDot.lhsIdx i q 1).val = (q ⟨0, by decide⟩).val :=
  blockDot.lhsIdx_val_of_single rfl i q
theorem rhs_row (i : S512x768.Idx) (q : blockDot.contr.Idx) : (blockDot.rhsIdx i q 0).val = (q ⟨0, by decide⟩).val :=
  blockDot.rhsIdx_val_of_single rfl i q
theorem rhs_col (i : S512x768.Idx) (q : blockDot.contr.Idx) : (blockDot.rhsIdx i q 1).val = (i 1).val := by
  unfold DotDims.rhsIdx
  rw [dif_neg (show ¬(1 : Fin S2048x768.rank) ∈ blockDot.rhsBatch by decide),
    dif_pos (show (1 : Fin S2048x768.rank) ∈ blockDot.rhsNonContracting by decide)]
  rfl

/-- The block product into a zero accumulator at entry (r, d): the sum over the contracted axis. -/
theorem blockProduct_apply (a : FVec Ideal S512x2048 .bf16) (b : FVec Ideal S2048x768 .bf16) (r : Fin 512) (d : Fin 768) :
    matmul blockDot none a b (constant S512x768 .f32 0x00000000#32) (ix2 r d)
      = ∑ j : Fin 2048, a (ix2 r j) * b (ix2 j d) := by
  refine (Ideal.matmul_constant_zero_apply blockDot none a b (ix2 r d)).trans ?_
  rw [← Equiv.sum_comp (contrEquiv1 blockDot 2048 rfl rfl).symm]
  refine Finset.sum_congr rfl fun k _ => ?_
  have hk := contrEquiv1_symm_val blockDot 2048 rfl rfl k
  have el : blockDot.lhsIdx (ix2 r d) ((contrEquiv1 blockDot 2048 rfl rfl).symm k) = ix2 r k :=
    funext fun x => Fin.ext (by
      match x with
      | ⟨0, _⟩ => exact lhs_row _ _
      | ⟨1, _⟩ => exact (lhs_col _ _).trans hk)
  have er : blockDot.rhsIdx (ix2 r d) ((contrEquiv1 blockDot 2048 rfl rfl).symm k) = ix2 k d :=
    funext fun x => Fin.ext (by
      match x with
      | ⟨0, _⟩ => exact (rhs_row _ _).trans hk
      | ⟨1, _⟩ => exact rhs_col _ _)
  rw [el, er]

/-- One step at entry (r, d): the accumulator plus the block's 2048 products. -/
theorem step_apply (x0 : Vec Ideal S512x2048 .f32) (x1 : Vec Ideal S2048x768 .f32) (acc : Vec Ideal S512x768 .f32)
    (r : Fin 512) (d : Fin 768) :
    k0_pay2 (F := Ideal) x0 x1 acc (ix2 r d) = acc (ix2 r d) + ∑ j : Fin 2048, x0 (ix2 r j) * x1 (ix2 j d) := by
  unfold k0_pay2
  simp only [shapeCast_self]
  refine (addf_apply _ _ (ix2 r d)).trans ?_
  refine congrArg (acc (ix2 r d) + ·) ?_
  exact blockProduct_apply _ _ r d

end Cert.KernelIdeal.Embed

end
-- ==== Proof.BlockReads.lean ====
/-
  Which entries of the padded operands a grid point sees. The grid is 2 x 25: point t is row block t / 25 and reduction
  step t % 25. The one-hot window's block at t is rows 512 (t / 25) + r, columns 2048 (t % 25) + j; the table window's
  block is rows 2048 (t % 25) + j, all 768 columns; the output window's block is rows 512 (t / 25) + r, all columns.
-/
import proofs.«136909_j79147657330929_1_alg».proof.Proof.Gen.KernelIdeal.Frame.Runs
import Idealize.ShloMosaic.Lib.ValueIdx
import Idealize.ShloMosaic.Lib.Pipeline.Value

noncomputable section

namespace Cert.KernelIdeal.Embed

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-- The three index maps over the grid: (t / 25, t % 25), (t % 25, 0), (t / 25, 0). -/
theorem index_maps : ∀ t : Fin cfg0.N,
    (win0_0.index t 0 = t.val / 25 ∧ win0_0.index t 1 = t.val % 25)
    ∧ (win0_1.index t 0 = t.val % 25 ∧ win0_1.index t 1 = 0)
    ∧ (win0_2.index t 0 = t.val / 25 ∧ win0_2.index t 1 = 0) :=
  (by decide +kernel : ∀ t : Fin grid0.N,
    (win0_0.index t 0 = t.val / 25 ∧ win0_0.index t 1 = t.val % 25)
    ∧ (win0_1.index t 0 = t.val % 25 ∧ win0_1.index t 1 = 0)
    ∧ (win0_2.index t 0 = t.val / 25 ∧ win0_2.index t 1 = 0))

/-- The one-hot block at point t, entry (r, j). -/
theorem oneHotBlock_apply (c : Dev nD) (t : Fin cfg0.N) (r : Fin 512) (j : Fin 2048)
    (hrow : 512 * (t.val / 25) + r.val < 1024) (hcol : 2048 * (t.val % 25) + j.val < 51200) :
    (iblk m c 0 t : S512x2048.Idx → F .f32) (ix2 r j)
      = (V m c main_v1 : S1024x51200.Idx → F .f32)
          (ix2 (⟨512 * (t.val / 25) + r.val, hrow⟩ : Fin 1024) (⟨2048 * (t.val % 25) + j.val, hcol⟩ : Fin 51200)) := by
  have hi := (index_maps t).1
  unfold iblk
  rw [View.read_apply]
  show V m c main_v1 _ = V m c main_v1 _
  refine congrArg (V m c main_v1) (funext fun a => Fin.ext ?_)
  match a with
  | ⟨0, _⟩ => show win0_0.index t 0 * 512 + 1 * r.val = 512 * (t.val / 25) + r.val; rw [hi.1]; omega
  | ⟨1, _⟩ => show win0_0.index t 1 * 2048 + 1 * j.val = 2048 * (t.val % 25) + j.val; rw [hi.2]; omega

/-- The table block at point t, entry (j, d). -/
theorem tableBlock_apply (c : Dev nD) (t : Fin cfg0.N) (j : Fin 2048) (d : Fin 768)
    (hrow : 2048 * (t.val % 25) + j.val < 51200) :
    (iblk m c 1 t : S2048x768.Idx → F .f32) (ix2 j d)
      = (V m c main_v2 : S51200x768.Idx → F .f32) (ix2 (⟨2048 * (t.val % 25) + j.val, hrow⟩ : Fin 51200) d) := by
  have hi := (index_maps t).2.1
  unfold iblk
  rw [View.read_apply]
  show V m c main_v2 _ = V m c main_v2 _
  refine congrArg (V m c main_v2) (funext fun a => Fin.ext ?_)
  match a with
  | ⟨0, _⟩ => show win0_1.index t 0 * 2048 + 1 * j.val = 2048 * (t.val % 25) + j.val; rw [hi.1]; omega
  | ⟨1, _⟩ => show win0_1.index t 1 * 768 + 1 * d.val = d.val; rw [hi.2]; omega

end Cert.KernelIdeal.Embed

end
-- ==== Proof.EmbedSpec.lean ====
/-
  The embedding lookup as one function of the two argument arrays, and the arithmetic of summing it in blocks.

  `lookup oh w` at (b, s, d) is the sum over the vocabulary index v < 50257 of `oh (b, s, v) * w (v, d)` on the extended
  reals. The kernel works on the operands padded with zeros to 51200 = 25 * 2048 along the vocabulary axis and adds one
  block of 2048 products per reduction step. `products P Q row d` is the sequence v ↦ P (row, v) * Q (v, d) of the padded
  operands (0 from 51200 on), so that the accumulator after step k is its sum over the first 2048 (k + 1) naturals:
  one more step adds the next stretch of 2048 (`sum_next_block`), the last step reaches 51200, and the 943 products in the
  padding are 0 * 0 = 0 (`sum_drop_padding`). Only commutativity and associativity of + are used: no entry needs to be
  finite.
-/
import Idealize.ShloMosaic.PureOps.Ideal
import Idealize.ShloMosaic.Lib.ValueIdx

noncomputable section

open scoped BigOperators

namespace Cert.Embed

open Idealize.ShloMosaic Idealize.ShloMosaic.ValueIdx

/-- The lookup: entry (b, s, d) is the sum over the vocabulary of one_hot (b, s, v) * weight (v, d). -/
def lookup (oh : (⟨3, ![4, 256, 50257]⟩ : Shape).Idx → EReal) (w : (⟨2, ![50257, 768]⟩ : Shape).Idx → EReal) :
    (⟨3, ![4, 256, 768]⟩ : Shape).Idx → EReal :=
  fun i => ∑ v : Fin 50257, oh (ix3 (i 0) (i 1) v) * w (ix2 v (i 2))

/-- The products along row `row` of `P` and column `d` of `Q`, as a sequence: zero from 51200 on. -/
def products (P : (⟨2, ![1024, 51200]⟩ : Shape).Idx → EReal) (Q : (⟨2, ![51200, 768]⟩ : Shape).Idx → EReal)
    (row : Fin 1024) (d : Fin 768) (v : ℕ) : EReal :=
  if h : v < 51200 then P (ix2 row (⟨v, h⟩ : Fin 51200)) * Q (ix2 (⟨v, h⟩ : Fin 51200) d) else 0

theorem products_of_lt (P : (⟨2, ![1024, 51200]⟩ : Shape).Idx → EReal) (Q : (⟨2, ![51200, 768]⟩ : Shape).Idx → EReal)
    (row : Fin 1024) (d : Fin 768) (v : ℕ) (h : v < 51200) :
    products P Q row d v = P (ix2 row (⟨v, h⟩ : Fin 51200)) * Q (ix2 (⟨v, h⟩ : Fin 51200) d) := dif_pos h

/-- One more block: the first 2048 (k + 1) terms are the first 2048 k and the next 2048. -/
theorem sum_next_block (t : ℕ → EReal) (k : ℕ) :
    ∑ v ∈ Finset.range (2048 * (k + 1)), t v
      = ∑ v ∈ Finset.range (2048 * k), t v + ∑ x ∈ Finset.range 2048, t (2048 * k + x) := by
  rw [Nat.mul_succ, Finset.sum_range_add]

/-- Terms that vanish from 50257 on do not count among the first 51200. -/
theorem sum_drop_padding (t : ℕ → EReal) (h : ∀ x, t (50257 + x) = 0) :
    ∑ v ∈ Finset.range 51200, t v = ∑ v ∈ Finset.range 50257, t v := by
  rw [show (51200 : ℕ) = 50257 + 943 from rfl, Finset.sum_range_add,
    Finset.sum_eq_zero (fun x _ => h x), add_zero]

/-- A block of the kernel's 2048 products is the stretch of `products` starting at 2048 k, when the two blocks hold
    the padded operands' entries at columns, respectively rows, 2048 k + j. -/
theorem block_eq_stretch (P : (⟨2, ![1024, 51200]⟩ : Shape).Idx → EReal) (Q : (⟨2, ![51200, 768]⟩ : Shape).Idx → EReal)
    (row : Fin 1024) (d : Fin 768) (k : ℕ) (hk : k < 25)
    (a : Fin 2048 → EReal) (b : Fin 2048 → EReal)
    (ha : ∀ (j : Fin 2048) (h : 2048 * k + j.val < 51200), a j = P (ix2 row (⟨2048 * k + j.val, h⟩ : Fin 51200)))
    (hb : ∀ (j : Fin 2048) (h : 2048 * k + j.val < 51200), b j = Q (ix2 (⟨2048 * k + j.val, h⟩ : Fin 51200) d)) :
    ∑ j : Fin 2048, a j * b j = ∑ x ∈ Finset.range 2048, products P Q row d (2048 * k + x) := by
  rw [Finset.sum_range]
  refine Finset.sum_congr rfl fun j _ => ?_
  have h : 2048 * k + j.val < 51200 := by have := j.isLt; omega
  rw [products_of_lt P Q row d _ h, ha j h, hb j h]

end Cert.Embed

end
-- ==== Proof.Accumulation.lean ====
/-
  The accumulator after every grid point. With P and Q the padded operands as the region finds them, after point n
  (reduction step n % 25 of row block n / 25) the accumulator at (r, d) is the sum of the first 2048 (n % 25 + 1) terms of
  the sequence v ↦ P (512 (n / 25) + r, v) * Q (v, d): step 0 adds the first 2048 to the zero block, each later step adds
  the next 2048 to what the point before left. By induction on the point.
-/
import proofs.«136909_j79147657330929_1_alg».proof.Proof.PointValues
import proofs.«136909_j79147657330929_1_alg».proof.Proof.BlockPayload
import proofs.«136909_j79147657330929_1_alg».proof.Proof.BlockReads
import proofs.«136909_j79147657330929_1_alg».proof.Proof.EmbedSpec

noncomputable section

open scoped BigOperators

namespace Cert.KernelIdeal.Embed

open Idealize.ShloMosaic Idealize.ShloMosaic.TcCoe Idealize.ShloMosaic.ValueIdx Idealize.SL.Sem Cert.KernelIdeal Cert.KernelIdeal.Gen
open Cert.Embed

variable (m : (ℓ : Loc nD τ sig) → Buf (Elt Ideal) ℓ)

/-- The padded one-hot operand as the region finds it. -/
def paddedOneHot (c : Dev nD) : (⟨2, ![1024, 51200]⟩ : Shape).Idx → EReal := V m c main_v1
/-- The padded table as the region finds it. -/
def paddedTable (c : Dev nD) : (⟨2, ![51200, 768]⟩ : Shape).Idx → EReal := V m c main_v2

/-- One step at point t, entry (r, d): the accumulator plus the stretch of 2048 products starting at 2048 (t % 25). -/
theorem step_at (c : Dev nD) (t : Fin cfg0.N) (acc : Vec Ideal S512x768 .f32) (r : Fin 512) (d : Fin 768)
    (hrow : 512 * (t.val / 25) + r.val < 1024) :
    k0_pay2 (F := Ideal) (iblk m c 0 t) (iblk m c 1 t) acc (ix2 r d)
      = acc (ix2 r d) + ∑ x ∈ Finset.range 2048,
          products (paddedOneHot m c) (paddedTable m c) (⟨512 * (t.val / 25) + r.val, hrow⟩ : Fin 1024) d (2048 * (t.val % 25) + x) := by
  refine (step_apply (iblk m c 0 t) (iblk m c 1 t) acc r d).trans ?_
  refine congrArg (acc (ix2 r d) + ·) ?_
  exact block_eq_stretch (paddedOneHot m c) (paddedTable m c) (⟨512 * (t.val / 25) + r.val, hrow⟩ : Fin 1024) d (t.val % 25)
    (Nat.mod_lt _ (by decide))
    (fun j => (iblk m c 0 t : S512x2048.Idx → EReal) (ix2 r j)) (fun j => (iblk m c 1 t : S2048x768.Idx → EReal) (ix2 j d))
    (fun j h => oneHotBlock_apply m c t r j hrow h) (fun j h => tableBlock_apply m c t j d h)

/-- At step 0 of a row block the accumulator holds the first 2048 products. -/
theorem acc_first (c : Dev nD) (t : Fin cfg0.N) (h0 : t.val % 25 = 0) (r : Fin 512) (d : Fin 768)
    (hrow : 512 * (t.val / 25) + r.val < 1024) :
    ((outsAt0 m c t.val t.isLt).2 : S512x768.Idx → EReal) (ix2 r d)
      = ∑ v ∈ Finset.range (2048 * (t.val % 25 + 1)),
          products (paddedOneHot m c) (paddedTable m c) (⟨512 * (t.val / 25) + r.val, hrow⟩ : Fin 1024) d v := by
  rw [acc_at_first m c t h0 (by omega)]
  refine (step_at m c t (k0_pay1 (F := Ideal)) r d hrow).trans ?_
  rw [seed_apply, zero_add,
    sum_next_block (products (paddedOneHot m c) (paddedTable m c) (⟨512 * (t.val / 25) + r.val, hrow⟩ : Fin 1024) d) (t.val % 25),
    h0, Nat.mul_zero, Finset.range_zero, Finset.sum_empty, zero_add]

/-- At a later step it holds what the point before left plus the next 2048 products. -/
theorem acc_later (c : Dev nD) (t : Fin cfg0.N) (h0 : ¬t.val % 25 = 0)
    (ih : ∀ (r : Fin 512) (d : Fin 768) (hrow' : 512 * ((t.val - 1) / 25) + r.val < 1024),
      ((outsAt0 m c (t.val - 1) (Nat.lt_of_le_of_lt (Nat.sub_le _ _) t.isLt)).2 : S512x768.Idx → EReal) (ix2 r d)
        = ∑ v ∈ Finset.range (2048 * ((t.val - 1) % 25 + 1)),
            products (paddedOneHot m c) (paddedTable m c) (⟨512 * ((t.val - 1) / 25) + r.val, hrow'⟩ : Fin 1024) d v)
    (r : Fin 512) (d : Fin 768) (hrow : 512 * (t.val / 25) + r.val < 1024) :
    ((outsAt0 m c t.val t.isLt).2 : S512x768.Idx → EReal) (ix2 r d)
      = ∑ v ∈ Finset.range (2048 * (t.val % 25 + 1)),
          products (paddedOneHot m c) (paddedTable m c) (⟨512 * (t.val / 25) + r.val, hrow⟩ : Fin 1024) d v := by
  have hacc : (outsAt0 m c t.val t.isLt).2
      = k0_pay2 (iblk m c 0 t) (iblk m c 1 t) (outsAt0 m c (t.val - 1) (Nat.lt_of_le_of_lt (Nat.sub_le _ _) t.isLt)).2 := by
    by_cases h1 : t.val % 25 = 24
    · exact acc_at_last m c t h0 h1
    · exact acc_at_middle m c t h0 h1
  rw [hacc]
  refine (step_at m c t _ r d hrow).trans ?_
  rw [sum_next_block (products (paddedOneHot m c) (paddedTable m c) (⟨512 * (t.val / 25) + r.val, hrow⟩ : Fin 1024) d) (t.val % 25)]
  refine congrArg (· + _) ?_
  have e1 : (t.val - 1) / 25 = t.val / 25 := by omega
  have e2 : (t.val - 1) % 25 + 1 = t.val % 25 := by omega
  have hrow' : 512 * ((t.val - 1) / 25) + r.val < 1024 := by rw [e1]; exact hrow
  refine (ih r d hrow').trans ?_
  have erow : (⟨512 * ((t.val - 1) / 25) + r.val, hrow'⟩ : Fin 1024) = ⟨512 * (t.val / 25) + r.val, hrow⟩ :=
    Fin.ext (by show 512 * ((t.val - 1) / 25) + r.val = 512 * (t.val / 25) + r.val; rw [e1])
  rw [erow, e2]

/-- The accumulator after point n. -/
theorem acc_after (c : Dev nD) : ∀ (n : ℕ) (hn : n < cfg0.N) (r : Fin 512) (d : Fin 768)
    (hrow : 512 * (n / 25) + r.val < 1024),
    ((outsAt0 m c n hn).2 : S512x768.Idx → EReal) (ix2 r d)
      = ∑ v ∈ Finset.range (2048 * (n % 25 + 1)),
          products (paddedOneHot m c) (paddedTable m c) (⟨512 * (n / 25) + r.val, hrow⟩ : Fin 1024) d v := by
  intro n
  induction n with
  | zero => intro hn r d hrow; exact acc_first m c ⟨0, hn⟩ rfl r d hrow
  | succ n ih =>
    intro hn r d hrow
    by_cases h0 : (n + 1) % 25 = 0
    · exact acc_first m c ⟨n + 1, hn⟩ h0 r d hrow
    · exact acc_later m c ⟨n + 1, hn⟩ h0 (fun r d h' => ih (Nat.lt_of_succ_lt hn) r d h') r d hrow

end Cert.KernelIdeal.Embed

end
-- ==== Proof.OutputArray.lean ====
/-
  The kernel's 1024 x 768 output array after the region. The output window is written back only after the last
  reduction step of a row block (points 24 and 49); what it writes is the accumulator, which by then holds all
  51200 = 2048 * 25 products of its rows. The two blocks (rows 0-511 and 512-1023) tile the array, so the array ends at
  the product of the padded operands: entry (row, d) is the sum over v < 51200 of P (row, v) * Q (v, d).
-/
import proofs.«136909_j79147657330929_1_alg».proof.Proof.Accumulation

noncomputable section

open scoped BigOperators

namespace Cert.KernelIdeal.Embed

open Idealize.ShloMosaic Idealize.ShloMosaic.TcCoe Idealize.ShloMosaic.ValueIdx Idealize.SL.Sem Cert.KernelIdeal Cert.KernelIdeal.Gen
open Idealize.ShloMosaic.Pipeline (Dat)
open Cert.Embed

variable (m : (ℓ : Loc nD τ sig) → Buf (Elt Ideal) ℓ)

/-- The product of the padded operands: entry (row, d) sums all 51200 products. -/
def paddedProduct (c : Dev nD) : (⟨2, ![1024, 768]⟩ : Shape).Idx → EReal :=
  fun i => ∑ v ∈ Finset.range 51200, products (paddedOneHot m c) (paddedTable m c) (i 0) (i 1) v

theorem paddedProduct_apply (c : Dev nD) (row : Fin 1024) (d : Fin 768) :
    paddedProduct m c (ix2 row d) = ∑ v ∈ Finset.range 51200, products (paddedOneHot m c) (paddedTable m c) row d v := rfl

attribute [irreducible] paddedProduct

/-- What a flushing point writes back is its block of the padded product. -/
theorem flushed_eq (c : Dev nD) (t : Fin cfg0.N) (hf : (cfg0.win 2).flush t = true) :
    (dats m 0 c).flushed 2 t = ((cfg0.win 2).blk t).view.read (Elt Ideal) (paddedProduct m c) := by
  have h24 : t.val % 25 = 24 := (flush0_2 t).mp hf
  have hN : t.val < 50 := lt_of_lt_of_eq t.isLt (show cfg0.N = 50 from N_0)
  have hi := (index_maps t).2.2
  show (cfg0.win 2).cut (grid0.coords t) ((dats m 0 c).after 2 t) = _
  rw [after0_2, out_at_last m c t (by omega) h24]
  funext j
  obtain ⟨r, d, rfl⟩ : ∃ (r : Fin 512) (d : Fin 768), j = ix2 r d := ⟨j 0, j 1, eq_ix2 j⟩
  have hrow : 512 * (t.val / 25) + r.val < 1024 := by have := r.isLt; omega
  have hemb : ((cfg0.win 2).blk t).view.emb (ix2 r d) = ix2 (⟨512 * (t.val / 25) + r.val, hrow⟩ : Fin 1024) d := by
    funext a
    apply Fin.ext
    match a with
    | ⟨0, _⟩ => show win0_2.index t 0 * 512 + 1 * r.val = 512 * (t.val / 25) + r.val; rw [hi.1]; omega
    | ⟨1, _⟩ => show win0_2.index t 1 * 768 + 1 * d.val = d.val; rw [hi.2]; omega
  rw [View.read_apply]
  show ((outsAt0 m c t.val t.isLt).2 : S512x768.Idx → EReal) (ix2 r d)
    = paddedProduct m c (((cfg0.win 2).blk t).view.emb (ix2 r d))
  rw [hemb, paddedProduct_apply]
  refine (acc_after m c t.val t.isLt r d hrow).trans ?_
  have e : 2048 * (t.val % 25 + 1) = 51200 := by omega
  rw [e]

/-- An index of the array is in point t's block iff each coordinate is in the block's range on its axis. -/
theorem mem_block (t : Fin cfg0.N) (i : S1024x768.Idx) :
    i ∈ ((cfg0.win 2).blk t).view.set
      ↔ ∀ a : Fin 2, win0_2.index t a * S512x768.size a ≤ (i a).val ∧ (i a).val < win0_2.index t a * S512x768.size a + S512x768.size a := by
  show i ∈ ((View.whole main_v3).slice (win0_2.rect t)).set ↔ _
  rw [View.set_slice_whole, Rect.mem_set_unit]
  exact Iff.rfl

/-- The array after the region is the padded product: row i₀ is written back by point 25 (i₀ / 512) + 24. -/
theorem product_array (c : Dev nD) : (dats m 0 c).arrAt 2 cfg0.N = paddedProduct m c :=
  (dats m 0 c).arrAt_eq_of_cover 2 (paddedProduct m c) (flushed_eq m c) fun i => by
    have hi0 : (i 0).val < 1024 := (i 0).isLt
    have hi1 : (i 1).val < 768 := (i 1).isLt
    have hN : cfg0.N = 50 := N_0
    have ht : 25 * ((i 0).val / 512) + 24 < cfg0.N := by rw [hN]; omega
    refine ⟨⟨25 * ((i 0).val / 512) + 24, ht⟩, (flush0_2 _).mpr (by show (25 * ((i 0).val / 512) + 24) % 25 = 24; omega), ?_⟩
    rw [mem_block]
    have hi := (index_maps ⟨25 * ((i 0).val / 512) + 24, ht⟩).2.2
    intro a
    match a with
    | ⟨0, _⟩ =>
      show win0_2.index ⟨25 * ((i 0).val / 512) + 24, ht⟩ 0 * 512 ≤ (i 0).val
        ∧ (i 0).val < win0_2.index ⟨25 * ((i 0).val / 512) + 24, ht⟩ 0 * 512 + 512
      rw [hi.1]
      show (25 * ((i 0).val / 512) + 24) / 25 * 512 ≤ (i 0).val ∧ (i 0).val < (25 * ((i 0).val / 512) + 24) / 25 * 512 + 512
      omega
    | ⟨1, _⟩ =>
      show win0_2.index ⟨25 * ((i 0).val / 512) + 24, ht⟩ 1 * 768 ≤ (i 1).val
        ∧ (i 1).val < win0_2.index ⟨25 * ((i 0).val / 512) + 24, ht⟩ 1 * 768 + 768
      rw [hi.2]
      omega

end Cert.KernelIdeal.Embed

end
-- ==== Proof.PaddedOperands.lean ====
/-
  The two operands as the region finds them. The one-hot argument [4, 256, 50257] is flattened to 1024 rows (row 256 b + s
  is position (b, s)) and padded with zeros from 50257 to 51200 columns; the table [50257, 768] is padded with zeros from
  50257 to 51200 rows. The padding value is the integer 0 converted to a float, which is the real number 0. Read at an
  entry: inside the original extent the padded array is the argument's entry, in the padding it is 0.
-/
import proofs.«136909_j79147657330929_1_alg».proof.Proof.Gen.KernelIdeal.Frame.Runs
import Idealize.ShloMosaic.Lib.ValueIdx
import Idealize.ShloMosaic.Lib.Pipeline.Value
import Idealize.ShloMosaic.Lib.KernelVsHost
import Idealize.ShloMosaic.Lib.StableHlo.Run

noncomputable section

namespace Cert.KernelIdeal.Embed

open Idealize.ShloMosaic Idealize.ShloMosaic.TcCoe Idealize.ShloMosaic.ValueIdx Idealize.SL.Sem Cert.KernelIdeal Cert.KernelIdeal.Gen

section AnyInstance
variable {F : FTy → Type} [FloatOps F]
variable (m : (ℓ : Loc nD τ sig) → Buf (Elt F) ℓ)

/-- The padding value both pads take: the integer constant 0 converted to f32. -/
abbrev padValue : FVec F S_ .f32 := sitofp .f32 (constantI S_ 32 0#32)

/-- The one-hot operand at region entry: the argument flattened and padded along its columns. -/
theorem oneHot_entry (c : Dev nD) :
    (V m c main_v1 : S1024x51200.Idx → F .f32)
      = pad S1024x51200 ![0, 0] ![0, 943] ![0, 0]
          (shapeCast S1024x50257 (m ((c : Thread nD τ).loc main_arg0)) shapeCasts_S4x256x50257_S1024x50257)
          (padValue (F := F)) pads_S1024x50257_S1024x51200_000_09430 h_S_ := by
  dsimp only [V, V0]
  simp only [hostOps0, hostOps0_1, hostOps0_2, hostOps0_3, List.flatten_cons, List.flatten_nil, List.append_nil,
    List.cons_append, List.nil_append]
  after_results
  rfl

/-- The table operand at region entry: the argument padded along its rows. -/
theorem table_entry (c : Dev nD) :
    (V m c main_v2 : S51200x768.Idx → F .f32)
      = pad S51200x768 ![0, 0] ![943, 0] ![0, 0] (m ((c : Thread nD τ).loc main_arg1))
          (padValue (F := F)) pads_S50257x768_S51200x768_09430_000 h_S_ := by
  dsimp only [V, V0]
  simp only [hostOps0, hostOps0_1, hostOps0_2, hostOps0_3, List.flatten_cons, List.flatten_nil, List.append_nil,
    List.cons_append, List.nil_append]
  after_results
  rfl

end AnyInstance

section AtIdeal
variable (m : (ℓ : Loc nD τ sig) → Buf (Elt Ideal) ℓ)

/-- The padding value is the real number 0. -/
theorem padValue_eq_zero : padValue (F := Ideal) (Shape.Idx.first h_S_) = (0 : EReal) := by
  show (((0#32 : BitVec 32).toInt : ℝ) : EReal) = 0
  simp

/-- Inside the vocabulary the padded one-hot operand at (row, v) is the argument at (row / 256, row % 256, v). -/
theorem oneHot_inside (c : Dev nD) (row : Fin 1024) (v : Fin 51200) (hv : v.val < 50257) :
    (V m c main_v1 : S1024x51200.Idx → EReal) (ix2 row v)
      = (m ((c : Thread nD τ).loc main_arg0) : S4x256x50257.Idx → EReal)
          (ix3 (⟨row.val / 256, by have := row.isLt; omega⟩ : Fin 4) (⟨row.val % 256, by omega⟩ : Fin 256) (⟨v.val, hv⟩ : Fin 50257)) := by
  rw [oneHot_entry]
  refine (pad_apply_of_inside _ _ _ _ _ _ _ (ix2 row v) (ix2 row (⟨v.val, hv⟩ : Fin 50257)) ?_).trans ?_
  · intro a
    match a with
    | ⟨0, _⟩ => show row.val = 0 + row.val * (0 + 1); omega
    | ⟨1, _⟩ => show v.val = 0 + v.val * (0 + 1); omega
  · refine shapeCast_apply _ _ _ _ ?_
    show (S4x256x50257.rowMajor _).val = (S1024x50257.rowMajor _).val
    rw [Shape.rowMajor_val_three, Shape.rowMajor_val_two]
    show (row.val / 256 * 256 + row.val % 256) * 50257 + v.val = row.val * 50257 + v.val
    have := Nat.div_add_mod row.val 256
    have e : row.val / 256 * 256 + row.val % 256 = row.val := by omega
    rw [e]

/-- In the padding the one-hot operand is 0. -/
theorem oneHot_outside (c : Dev nD) (row : Fin 1024) (v : Fin 51200) (hv : 50257 ≤ v.val) :
    (V m c main_v1 : S1024x51200.Idx → EReal) (ix2 row v) = (0 : EReal) := by
  rw [oneHot_entry]
  refine (pad_apply_of_not_inside _ _ _ _ _ _ _ (ix2 row v) (1 : Fin 2) ?_).trans (padValue_eq_zero)
  show ¬(0 ≤ v.val ∧ (v.val - 0) % (0 + 1) = 0 ∧ (v.val - 0) / (0 + 1) < 50257)
  intro h
  have h3 := h.2.2
  simp only [Nat.sub_zero, Nat.zero_add, Nat.div_one] at h3
  omega

/-- Inside the vocabulary the padded table at (v, d) is the argument at (v, d). -/
theorem table_inside (c : Dev nD) (v : Fin 51200) (d : Fin 768) (hv : v.val < 50257) :
    (V m c main_v2 : S51200x768.Idx → EReal) (ix2 v d)
      = (m ((c : Thread nD τ).loc main_arg1) : S50257x768.Idx → EReal) (ix2 (⟨v.val, hv⟩ : Fin 50257) d) := by
  rw [table_entry]
  refine pad_apply_of_inside _ _ _ _ _ _ _ (ix2 v d) (ix2 (⟨v.val, hv⟩ : Fin 50257) d) ?_
  intro a
  match a with
  | ⟨0, _⟩ => show v.val = 0 + v.val * (0 + 1); omega
  | ⟨1, _⟩ => show d.val = 0 + d.val * (0 + 1); omega

/-- In the padding the table is 0. -/
theorem table_outside (c : Dev nD) (v : Fin 51200) (d : Fin 768) (hv : 50257 ≤ v.val) :
    (V m c main_v2 : S51200x768.Idx → EReal) (ix2 v d) = (0 : EReal) := by
  rw [table_entry]
  refine (pad_apply_of_not_inside _ _ _ _ _ _ _ (ix2 v d) (0 : Fin 2) ?_).trans (padValue_eq_zero)
  show ¬(0 ≤ v.val ∧ (v.val - 0) % (0 + 1) = 0 ∧ (v.val - 0) / (0 + 1) < 50257)
  intro h
  have h3 := h.2.2
  simp only [Nat.sub_zero, Nat.zero_add, Nat.div_one] at h3
  omega

end AtIdeal

end Cert.KernelIdeal.Embed

end
-- ==== Proof.LookupBridge.lean ====
/-
  The padded product is the lookup. Row 256 b + s of the flattened one-hot operand is position (b, s); for v < 50257
  the padded operands are the arguments, so the product there is one_hot (b, s, v) * weight (v, d); for v >= 50257 both
  padded operands are 0 and the product is 0 * 0 = 0. So the sum of all 51200 products is the sum of the first 50257,
  which is the lookup's sum.
-/
import proofs.«136909_j79147657330929_1_alg».proof.Proof.OutputArray
import proofs.«136909_j79147657330929_1_alg».proof.Proof.PaddedOperands

noncomputable section

open scoped BigOperators

namespace Cert.KernelIdeal.Embed

open Idealize.ShloMosaic Idealize.ShloMosaic.TcCoe Idealize.ShloMosaic.ValueIdx Idealize.SL.Sem Cert.KernelIdeal Cert.KernelIdeal.Gen
open Cert.Embed

variable (m : (ℓ : Loc nD τ sig) → Buf (Elt Ideal) ℓ)

/-- The one-hot argument as a plain function of its index. -/
abbrev oneHotArg (c : Dev nD) : (⟨3, ![4, 256, 50257]⟩ : Shape).Idx → EReal := m ((c : Thread nD τ).loc main_arg0)
/-- The table argument as a plain function of its index. -/
abbrev tableArg (c : Dev nD) : (⟨2, ![50257, 768]⟩ : Shape).Idx → EReal := m ((c : Thread nD τ).loc main_arg1)

/-- In the padding every product is 0. -/
theorem products_padding (c : Dev nD) (row : Fin 1024) (d : Fin 768) (x : ℕ) :
    products (paddedOneHot m c) (paddedTable m c) row d (50257 + x) = 0 := by
  unfold products
  split
  · rename_i h
    have e : paddedOneHot m c (ix2 row (⟨50257 + x, h⟩ : Fin 51200)) = 0 :=
      oneHot_outside m c row ⟨50257 + x, h⟩ (Nat.le_add_right _ _)
    rw [e, zero_mul]
  · rfl

/-- Inside the vocabulary the product at row 256 b + s is the arguments' product at (b, s, v) and (v, d). -/
theorem products_inside (c : Dev nD) (b : Fin 4) (s : Fin 256) (d : Fin 768) (v : Fin 50257)
    (hrow : 256 * b.val + s.val < 1024) :
    products (paddedOneHot m c) (paddedTable m c) (⟨256 * b.val + s.val, hrow⟩ : Fin 1024) d v.val
      = oneHotArg m c (ix3 b s v) * tableArg m c (ix2 v d) := by
  have hv : v.val < 51200 := by have := v.isLt; omega
  rw [products_of_lt _ _ _ _ _ hv]
  have hs := s.isLt
  have h1 : paddedOneHot m c (ix2 (⟨256 * b.val + s.val, hrow⟩ : Fin 1024) (⟨v.val, hv⟩ : Fin 51200))
      = oneHotArg m c (ix3 (⟨(256 * b.val + s.val) / 256, by omega⟩ : Fin 4) (⟨(256 * b.val + s.val) % 256, by omega⟩ : Fin 256)
          (⟨v.val, v.isLt⟩ : Fin 50257)) :=
    oneHot_inside m c ⟨256 * b.val + s.val, hrow⟩ ⟨v.val, hv⟩ v.isLt
  have h2 : paddedTable m c (ix2 (⟨v.val, hv⟩ : Fin 51200) d) = tableArg m c (ix2 (⟨v.val, v.isLt⟩ : Fin 50257) d) :=
    table_inside m c ⟨v.val, hv⟩ d v.isLt
  rw [h1, h2]
  refine congr (congrArg HMul.hMul (congrArg (oneHotArg m c) ?_)) (congrArg (tableArg m c) ?_)
  · funext a
    match a with
    | ⟨0, _⟩ => exact Fin.ext (by show (256 * b.val + s.val) / 256 = b.val; omega)
    | ⟨1, _⟩ => exact Fin.ext (by show (256 * b.val + s.val) % 256 = s.val; omega)
    | ⟨2, _⟩ => rfl
  · funext a
    match a with
    | ⟨0, _⟩ => rfl
    | ⟨1, _⟩ => rfl

/-- The padded product, flattened rows read back as positions, is the lookup of the arguments. -/
theorem reshaped_product_eq_lookup (c : Dev nD) :
    shapeCast S4x256x768 (paddedProduct m c) shapeCasts_S1024x768_S4x256x768
      = lookup (oneHotArg m c) (tableArg m c) := by
  funext i
  obtain ⟨b, s, d, rfl⟩ : ∃ (b : Fin 4) (s : Fin 256) (d : Fin 768), i = ix3 b s d := ⟨i 0, i 1, i 2, eq_ix3 i⟩
  have hb := b.isLt
  have hs := s.isLt
  have hrow : 256 * b.val + s.val < 1024 := by omega
  refine (shapeCast_apply _ _ (ix3 b s d) (ix2 (⟨256 * b.val + s.val, hrow⟩ : Fin 1024) d) ?_).trans ?_
  · show (S1024x768.rowMajor _).val = (S4x256x768.rowMajor _).val
    rw [Shape.rowMajor_val_two, Shape.rowMajor_val_three]
    show (256 * b.val + s.val) * 768 + d.val = (b.val * 256 + s.val) * 768 + d.val
    rw [Nat.mul_comm 256 b.val]
  · rw [paddedProduct_apply, sum_drop_padding _ (products_padding m c _ d), Finset.sum_range]
    show _ = ∑ v : Fin 50257, _
    exact Finset.sum_congr rfl fun v _ => products_inside m c b s d v hrow

end Cert.KernelIdeal.Embed

end
-- ==== Proof.KernelRun.lean ====
/-
  The kernel's run read at its result. After the region the host reshapes the 1024 x 768 output array to
  [4, 256, 768]; the output array is the product of the padded operands, which read back by positions is the lookup of
  the two arguments. So every weakly fair execution ends with the result array at the lookup and the arguments
  unchanged.
-/
import proofs.«136909_j79147657330929_1_alg».proof.Proof.LookupBridge
import Idealize.ShloMosaic.Lib.StableHlo.Run

noncomputable section

namespace Cert.KernelIdeal.Embed

open Idealize.ShloMosaic Idealize.ShloMosaic.TcCoe Idealize.ShloMosaic.ValueIdx Idealize.SL.Sem Cert.KernelIdeal Cert.KernelIdeal.Gen
open Cert.Embed

variable (m : (ℓ : Loc nD τ sig) → Buf (Elt Ideal) ℓ) (ρ : Dev nD → PrngReg)

/-- The result buffer after the host's last line: the output array reshaped, which is the lookup. -/
theorem result_eq_lookup (c : Dev nD) :
    (Pipeline.afterTail₀ cfgs (dats m) 0 (V0 m) [hostOps1] c main_v4 : S4x256x768.Idx → EReal)
      = lookup (m ((c : Thread nD τ).loc main_arg0)) (m ((c : Thread nD τ).loc main_arg1)) := by
  refine Eq.trans ?_ (reshaped_product_eq_lookup m c)
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = paddedProduct m c :=
    (Pipeline.withArrays_arr spec0 launch0.win.arr_inj c _ _ 2).trans (product_array m c)
  rw [hw]
  rfl

/-- The run: the result at the lookup of the arguments, the arguments unchanged. -/
theorem run : θ_run defs (onTc (τ := τ) (main (F := Ideal))) ⟨m, fun _ => 0, ρ⟩ fun r => ∀ c : Dev nD,
      r.2.mem ((c.tc : Thread nD τ).loc main_v4)
        = lookup (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (result_eq_lookup m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Embed

end
-- ==== Proof.ReferenceValue.lean ====
/-
  The reference's einsum is the lookup: its one `dot_general` contracts axis 2 of the one-hot array with axis 0 of the
  table, so at (b, s, d) it is the sum over v of one_hot (b, s, v) * weight (v, d).
-/
import proofs.«136909_j79147657330929_1_alg».proof.Proof.Gen.ReferenceIdeal.Read
import proofs.«136909_j79147657330929_1_alg».proof.Proof.EmbedSpec

noncomputable section

open scoped BigOperators

namespace Cert.ReferenceIdeal.Embed

open Idealize.ShloMosaic Idealize.ShloMosaic.ValueIdx Cert.ReferenceIdeal Cert.ReferenceIdeal.Gen Cert.Embed

theorem reference_eq_lookup (x0 : (⟨S4x256x50257, .f32⟩ : BufTy).Contents (Elt Ideal))
    (x1 : (⟨S50257x768, .f32⟩ : BufTy).Contents (Elt Ideal)) :
    Read.val_main_v0 (F := Ideal) x0 x1 = lookup x0 x1 := by
  funext i
  rw [Read.val_main_v0_apply]
  show _ = ∑ v : Fin 50257, x0 (ix3 (i 0) (i 1) v) * x1 (ix2 v (i 2))
  refine Finset.sum_congr rfl fun k _ => ?_
  have el : Read.lidx_main_v0 i k = ix3 (i 0) (i 1) k :=
    funext fun a => by match a with | ⟨0, _⟩ => rfl | ⟨1, _⟩ => rfl | ⟨2, _⟩ => rfl
  have er : Read.ridx_main_v0 i k = ix2 k (i 2) :=
    funext fun a => by match a with | ⟨0, _⟩ => rfl | ⟨1, _⟩ => rfl
  rw [el, er]
  rfl

end Cert.ReferenceIdeal.Embed

end
-- ==== Proof.lean ====
/-
  An embedding lookup written as a dense matrix product: one_hot [4, 256, 50257] against weight [50257, 768].

  The kernel flattens the one-hot array to 1024 rows, pads both operands with zeros along the vocabulary axis from 50257
  to 51200 = 25 * 2048, and runs a 2 x 25 grid: point (i, k) adds to a 512 x 768 accumulator the product of the one-hot
  block (rows 512 i .., columns 2048 k ..) and the table block (rows 2048 k ..), both rounded to bf16; the accumulator
  is zeroed at k = 0 and copied to the output block at k = 24; the output is reshaped back to [4, 256, 768]. The
  reference is one einsum over the vocabulary axis.

  Over the extended reals the roundings are the identity, so after step k the accumulator at (r, d) is the sum of the
  first 2048 (k + 1) products of row 512 i + r of the padded one-hot operand with column d of the padded table
  (Proof/Accumulation.lean, by induction on the grid point); after the last step that is all 51200 of them, the two
  output blocks tile the output array (Proof/OutputArray.lean), the 943 products in the padding are 0 * 0 = 0, and the
  remaining 50257 are the reference's (Proof/LookupBridge.lean, Proof/ReferenceValue.lean). Both programs therefore end
  at `Cert.Embed.lookup` of the arguments. Only commutativity and associativity of + and 0 * 0 = 0 are used, so the
  precondition is never opened. The idealization rewrote nothing: that conjunct is `True`.
-/
import proofs.«136909_j79147657330929_1_alg».proof.Defs
import proofs.«136909_j79147657330929_1_alg».proof.Proof.Gen.Kernel
import proofs.«136909_j79147657330929_1_alg».proof.Proof.Gen.Kernel.Skeleton
import proofs.«136909_j79147657330929_1_alg».proof.Proof.Gen.Kernel.Launch
import proofs.«136909_j79147657330929_1_alg».proof.Proof.Gen.Kernel.Points
import proofs.«136909_j79147657330929_1_alg».proof.Proof.Gen.Kernel.Frame
import proofs.«136909_j79147657330929_1_alg».proof.Proof.Gen.KernelIdeal
import proofs.«136909_j79147657330929_1_alg».proof.Proof.Gen.KernelIdeal.Skeleton
import proofs.«136909_j79147657330929_1_alg».proof.Proof.Gen.KernelIdeal.Launch
import proofs.«136909_j79147657330929_1_alg».proof.Proof.Gen.KernelIdeal.Points
import proofs.«136909_j79147657330929_1_alg».proof.Proof.Gen.KernelIdeal.Frame
import proofs.«136909_j79147657330929_1_alg».proof.Proof.Gen.ReferenceIdeal
import proofs.«136909_j79147657330929_1_alg».proof.Proof.Gen.ReferenceIdeal.Run
import proofs.«136909_j79147657330929_1_alg».proof.Proof.Gen.ReferenceIdeal.Read
import proofs.«136909_j79147657330929_1_alg».proof.Proof.Gen.Pre_finite_inputs
import proofs.«136909_j79147657330929_1_alg».proof.Proof.KernelRun
import proofs.«136909_j79147657330929_1_alg».proof.Proof.ReferenceValue
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end at the lookup of the arguments: the kernel by its accumulation over the grid, the reference by
    its one contraction; the arguments agree. -/
theorem algebraic : Cert.algebraic_KernelIdeal_ReferenceIdeal := by
  intro m ρ m' ρ' _ hagree
  refine ⟨fun c => Cert.Embed.lookup
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Embed.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.Embed.reference_eq_lookup, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
